-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1000 : Shape := ⟨2, ![65536, 1000]⟩
abbrev S65536 : Shape := ⟨1, ![65536]⟩
abbrev S_ : Shape := ⟨0, ![]⟩

class Facts : Prop where
  bcast_S_S65536x1000 : S_.BroadcastsInDim S65536x1000 (![] : Fin 0 → Fin S65536x1000.rank)
  reducesTo_S65536x1000_S_d0_1 : S65536x1000.ReducesTo [0, 1] S_
  h_S_ : 0 < S_.numel

variable [Facts]

def fn {F : FTy → Type} [FloatOps F] (main_arg0 : FVec F S65536x1000 .f32) (main_arg1 : IVec S65536 32) : IVec S_ 1 :=
  let main_v0 : FVec F S65536x1000 .f32 := Host.absf main_arg0
  let main_cst : FVec F S_ .f32 := constant S_ .f32 0x7F800000#32
  let main_v1 : FVec F S65536x1000 .f32 := broadcastInDim S65536x1000 ![] bcast_S_S65536x1000 main_cst
  let main_v2 : IVec S65536x1000 1 := cmpf .olt main_v0 main_v1
  let main_c : IVec S_ 1 := constantI S_ 1 1#1
  let main_v3 : IVec S_ 1 := (fun x v => Host.reduce IntOp.andi x v reducesTo_S65536x1000_S_d0_1 h_S_) main_v2 main_c
  main_v3
-- ==== Kernel.lean ====
abbrev S65536x1000 : Shape := ⟨2, ![65536, 1000]⟩
abbrev S65536 : Shape := ⟨1, ![65536]⟩
abbrev S1x1000 : Shape := ⟨2, ![1, 1000]⟩
abbrev S1024x1000 : Shape := ⟨2, ![1024, 1000]⟩
abbrev S1024 : Shape := ⟨1, ![1024]⟩
abbrev S1024x1 : Shape := ⟨2, ![1024, 1]⟩
abbrev S1000 : Shape := ⟨1, ![1000]⟩
abbrev S_ : Shape := ⟨0, ![]⟩
abbrev S65536x1 : Shape := ⟨2, ![65536, 1]⟩

abbrev nBuf : Space → Nat
  | .hbm => 26
  | .vmem => 4
  | .smem => 0
  | _ => 0

abbrev bufTy : (tb : Table) → Fin (tcTables nBuf tb) → BufTy
  | .hbm, ⟨0, _⟩ => ⟨S65536x1000, .f32⟩
  | .hbm, ⟨1, _⟩ => ⟨S65536, .i32⟩
  | .hbm, ⟨2, _⟩ => ⟨S1x1000, .f32⟩
  | .hbm, ⟨3, _⟩ => ⟨S1000, .f32⟩
  | .hbm, ⟨4, _⟩ => ⟨S_, .f32⟩
  | .hbm, ⟨5, _⟩ => ⟨S1000, .f32⟩
  | .hbm, ⟨6, _⟩ => ⟨S_, .i32⟩
  | .hbm, ⟨7, _⟩ => ⟨S65536, .i32⟩
  | .hbm, ⟨8, _⟩ => ⟨S65536, .i1⟩
  | .hbm, ⟨9, _⟩ => ⟨S_, .i32⟩
  | .hbm, ⟨10, _⟩ => ⟨S65536, .i32⟩
  | .hbm, ⟨11, _⟩ => ⟨S65536, .i32⟩
  | .hbm, ⟨12, _⟩ => ⟨S65536, .i32⟩
  | .hbm, ⟨13, _⟩ => ⟨S65536x1, .i32⟩
  | .hbm, ⟨14, _⟩ => ⟨S_, .f32⟩
  | .hbm, ⟨15, _⟩ => ⟨S65536, .f32⟩
  | .hbm, ⟨16, _⟩ => ⟨S1000, .f32⟩
  | .hbm, ⟨17, _⟩ => ⟨S_, .f32⟩
  | .hbm, ⟨18, _⟩ => ⟨S1000, .f32⟩
  | .hbm, ⟨19, _⟩ => ⟨S1000, .f32⟩
  | .hbm, ⟨20, _⟩ => ⟨S1000, .f32⟩
  | .hbm, ⟨21, _⟩ => ⟨S1000, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S1024x1000, .f32⟩
  | .local _ .vmem, ⟨1, _⟩ => ⟨S1024x1000, .f32⟩
  | .local _ .vmem, ⟨2, _⟩ => ⟨S1x1000, .f32⟩
  | .local _ .vmem, ⟨3, _⟩ => ⟨S1x1000, .f32⟩
  | _, _ => ⟨S65536x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v28 : BitVec 1 := Scalar.cmpi .eq arg0 c63_i32
  let v29 : BitVec 32 := Scalar.extui v28
  let c0_i32_10 : BitVec 32 := 0#32
  let v30 : BitVec 1 := Scalar.cmpi .ne v29 c0_i32_10
  v30

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  inb_S1024x1000_S1024x1000_0_0 : ∀ a, (![0, 0] : Fin 2 → Nat) a + S1024x1000.size a ≤ S1024x1000.size a
  h_S1024x1000 : 0 < S1024x1000.numel
  reduces_S1024x1000_S1024 : S1024x1000.Reduces [1] S1024
  shapeCasts_S1024_S1024x1 : S1024.ShapeCasts S1024x1
  broadcasts_S1024x1_S1024x1000 : S1024x1.Broadcasts S1024x1000
  reduces_S1024x1000_S1000 : S1024x1000.Reduces [0] S1000
  shapeCasts_S1000_S1x1000 : S1000.ShapeCasts S1x1000
  shapeCasts_S1x1000_S1000 : S1x1000.ShapeCasts S1000
  bcast_S_S1000 : S_.BroadcastsInDim S1000 (![] : Fin 0 → Fin S1000.rank)
  bcast_S_S65536 : S_.BroadcastsInDim S65536 (![] : Fin 0 → Fin S65536.rank)
  bcast_S65536_S65536x1_0 : S65536.BroadcastsInDim S65536x1 (![0] : Fin 1 → Fin S65536x1.rank)
  reducesTo_S1000_S_d0 : S1000.ReducesTo [0] S_
  h_S_ : 0 < S_.numel
  scatter_S1000_S65536x1_S65536_n_0_0_1_wf : ScatterDims.WF S1000 S65536x1 S65536 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1000.size a ≤ S65536x1000.size a
  hwx0_0 : ∀ i : grid0.Coords, EltTy.bits .f32 = 32 ∨ (Rect.block (s := S65536x1000) S1024x1000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1000.size a ≤ S1x1000.size a
  hwx0_1 : ∀ i : grid0.Coords, EltTy.bits .f32 = 32 ∨ (Rect.block (s := S1x1000) S1x1000.size (cc0_transform_1 i) (hinb0_1 i)).WholeWords (EltTy.packing .f32)

variable [Facts₀]

def scatter_S1000_S65536x1_S65536_n_0_0_1 : ScatterDims S1000 S65536x1 S65536 where
  updateWindowDims := []
  insertedWindowDims := [0]
  scatterDimsToOperandDims := [0]
  indexVectorDim := 1
  wf := scatter_S1000_S65536x1_S65536_n_0_0_1_wf

abbrev win0_0 : Pipeline.Window sig grid0 :=
  Pipeline.Window.ofSpec (Memref.whole main_arg0) S1024x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1000.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S65536x1000 : Shape := ⟨2, ![65536, 1000]⟩
abbrev S65536 : Shape := ⟨1, ![65536]⟩
abbrev S_ : Shape := ⟨0, ![]⟩
abbrev S65536x1 : Shape := ⟨2, ![65536, 1]⟩
abbrev S1000 : Shape := ⟨1, ![1000]⟩

abbrev nBuf : Space → Nat
  | .hbm => 53
  | .vmem => 0
  | .smem => 0
  | _ => 0

abbrev bufTy : (tb : Table) → Fin (tcTables nBuf tb) → BufTy
  | .hbm, ⟨0, _⟩ => ⟨S65536x1000, .f32⟩
  | .hbm, ⟨1, _⟩ => ⟨S65536, .i32⟩
  | .hbm, ⟨2, _⟩ => ⟨S65536x1000, .f32⟩
  | .hbm, ⟨3, _⟩ => ⟨S_, .f32⟩
  | .hbm, ⟨4, _⟩ => ⟨S65536, .f32⟩
  | .hbm, ⟨5, _⟩ => ⟨S65536x1, .f32⟩
  | .hbm, ⟨6, _⟩ => ⟨S65536x1, .f32⟩
  | .hbm, ⟨7, _⟩ => ⟨S_, .f32⟩
  | .hbm, ⟨8, _⟩ => ⟨S65536x1, .f32⟩
  | .hbm, ⟨9, _⟩ => ⟨S65536x1, .f32⟩
  | .hbm, ⟨10, _⟩ => ⟨S65536x1000, .f32⟩
  | .hbm, ⟨11, _⟩ => ⟨S65536x1000, .f32⟩
  | .hbm, ⟨12, _⟩ => ⟨S_, .f32⟩
  | .hbm, ⟨13, _⟩ => ⟨S65536, .f32⟩
  | .hbm, ⟨14, _⟩ => ⟨S_, .f32⟩
  | .hbm, ⟨15, _⟩ => ⟨S65536, .f32⟩
  | .hbm, ⟨16, _⟩ => ⟨S65536, .f32⟩
  | .hbm, ⟨17, _⟩ => ⟨S65536x1, .f32⟩
  | .hbm, ⟨18, _⟩ => ⟨S65536x1000, .f32⟩
  | .hbm, ⟨19, _⟩ => ⟨S65536x1000, .f32⟩
  | .hbm, ⟨20, _⟩ => ⟨S65536x1000, .f32⟩
  | .hbm, ⟨21, _⟩ => ⟨S_, .f32⟩
  | .hbm, ⟨22, _⟩ => ⟨S65536, .f32⟩
  | .hbm, ⟨23, _⟩ => ⟨S65536x1, .f32⟩
  | .hbm, ⟨24, _⟩ => ⟨S65536x1000, .f32⟩
  | .hbm, ⟨25, _⟩ => ⟨S65536x1000, .f32⟩
  | .hbm, ⟨26, _⟩ => ⟨S_, .f32⟩
  | .hbm, ⟨27, _⟩ => ⟨S1000, .f32⟩
  | .hbm, ⟨28, _⟩ => ⟨S_, .f32⟩
  | .hbm, ⟨29, _⟩ => ⟨S1000, .f32⟩
  | .hbm, ⟨30, _⟩ => ⟨S1000, .f32⟩
  | .hbm, ⟨31, _⟩ => ⟨S_, .f32⟩
  | .hbm, ⟨32, _⟩ => ⟨S1000, .f32⟩
  | .hbm, ⟨33, _⟩ => ⟨S_, .i32⟩
  | .hbm, ⟨34, _⟩ => ⟨S65536, .i32⟩
  | .hbm, ⟨35, _⟩ => ⟨S65536, .i1⟩
  | .hbm, ⟨36, _⟩ => ⟨S_, .i32⟩
  | .hbm, ⟨37, _⟩ => ⟨S65536, .i32⟩
  | .hbm, ⟨38, _⟩ => ⟨S65536, .i32⟩
  | .hbm, ⟨39, _⟩ => ⟨S65536, .i32⟩
  | .hbm, ⟨40, _⟩ => ⟨S65536x1, .i32⟩
  | .hbm, ⟨41, _⟩ => ⟨S_, .f32⟩
  | .hbm, ⟨42, _⟩ => ⟨S65536, .f32⟩
  | .hbm, ⟨43, _⟩ => ⟨S1000, .f32⟩
  | .hbm, ⟨44, _⟩ => ⟨S_, .f32⟩
  | .hbm, ⟨45, _⟩ => ⟨S1000, .f32⟩
  | .hbm, ⟨46, _⟩ => ⟨S1000, .f32⟩
  | .hbm, ⟨47, _⟩ => ⟨S1000, .f32⟩
  | .hbm, ⟨48, _⟩ => ⟨S1000, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | _, _ => ⟨S65536x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_c : Ref sig .tc := ⟨.hbm, 33, rfl⟩
abbrev main_v20 : Ref sig .tc := ⟨.hbm, 34, rfl⟩
abbrev main_v21 : Ref sig .tc := ⟨.hbm, 35, rfl⟩
abbrev main_c_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_cst_8 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_9 : Ref sig .tc := ⟨.hbm, 49, rfl⟩
abbrev main_v32 : Ref sig .tc := ⟨.hbm, 50, rfl⟩
abbrev main_cst_10 : Ref sig .tc := ⟨.hbm, 51, rfl⟩
abbrev main_v33 : Ref sig .tc := ⟨.hbm, 52, rfl⟩

abbrev nD : Nat := 1
abbrev τ : Topo := Topo.v7x

variable {F : FTy → Type} [FloatOps F]

class Facts₀ : Prop where
  reducesTo_S65536x1000_S65536_d1 : S65536x1000.ReducesTo [1] S65536
  h_S_ : 0 < S_.numel
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x1000_0_1 : S65536x1.BroadcastsInDim S65536x1000 (![0, 1] : Fin 2 → Fin S65536x1000.rank)
  bcast_S_S65536 : S_.BroadcastsInDim S65536 (![] : Fin 0 → Fin S65536.rank)
  reducesTo_S65536x1000_S1000_d0 : S65536x1000.ReducesTo [0] S1000
  bcast_S_S1000 : S_.BroadcastsInDim S1000 (![] : Fin 0 → Fin S1000.rank)
  reducesTo_S1000_S_d0 : S1000.ReducesTo [0] S_
  scatter_S1000_S65536x1_S65536_n_0_0_1_wf : ScatterDims.WF S1000 S65536x1 S65536 [] [0] [0] 1

variable [Facts₀]

def scatter_S1000_S65536x1_S65536_n_0_0_1 : ScatterDims S1000 S65536x1 S65536 where
  updateWindowDims := []
  insertedWindowDims := [0]
  scatterDimsToOperandDims := [0]
  indexVectorDim := 1
  wf := scatter_S1000_S65536x1_S65536_n_0_0_1_wf

class Facts : Prop extends Facts₀ where

variable [Facts]
-- ==== Proof.BodyCases.lean ====
/-
  What one call of the kernel body leaves behind, case by case.

  The body keeps a running column total in a scratch row of 1000 entries.  At every grid point it adds to that row
  the block's contribution (the column sums of the block's row-wise normalised exponentials); at the first point it
  first clears the row; at the last point it also writes the row, scaled, into the output block.  So there are three
  cases, and in each the scratch row ends as the accumulation step applied to the block and to what the row held
  (zero, at the first point), and at the last point the output block is the scaling step applied to that.
-/
import proofs.«167531_j15410342658796_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Cases

open Cert.KernelIdeal Cert.KernelIdeal.Gen

variable {F : FTy → Type} [FloatOps F]

/-- The zero offsets of a whole-row access. -/
theorem zeros2 : (![0, 0] : Fin 2 → Nat) = fun _ => 0 := funext fun a => by fin_cases a <;> rfl

/-- A middle point: the scratch row, holding `xs`, ends as the accumulation step of the block `x` and `xs`. -/
theorem scratch_B (c : Dev nD) (i : grid0.Coords) (a1 : Memref sig .tc .vmem S1024x1000 .f32) (h1 : a1.IsWhole)
    (a2 : Memref sig .tc .vmem S1x1000 .f32) (h2 : a2.IsWhole) (a3 : Memref sig .tc .vmem S1x1000 .f32) (h3 : a3.IsWhole)
    (hc0 : ¬cond0_0 i) (hc1 : ¬cond0_1 i) (x : Vec F S1024x1000 .f32) (xs : Vec F S1x1000 .f32) :
    sout0_B_0 c i a1 h1 a2 h2 a3 h3 hc0 hc1 x xs = k0_pay2 x xs := by
  unfold sout0_B_0
  rw [View.read_writes_eq_canon _ _ _ (scover0_B_0 c i a1 h1 a2 h2 a3 h3 hc0 hc1 x xs)]
  unfold kernelRun0_B
  dsimp only
  rw [View.canon_unit_zero zeros2]
  simp only [View.readAt_eq_ld, h1.read_unread, h3.read_unread, View.ld_unit_zero (S := S1024x1000) zeros2,
    View.ld_unit_zero (S := S1x1000) zeros2]

/-- The last point: the scratch row ends as at a middle point. -/
theorem scratch_C (c : Dev nD) (i : grid0.Coords) (a1 : Memref sig .tc .vmem S1024x1000 .f32) (h1 : a1.IsWhole)
    (a2 : Memref sig .tc .vmem S1x1000 .f32) (h2 : a2.IsWhole) (a3 : Memref sig .tc .vmem S1x1000 .f32) (h3 : a3.IsWhole)
    (hc0 : ¬cond0_0 i) (hc1 : cond0_1 i) (x : Vec F S1024x1000 .f32) (xs : Vec F S1x1000 .f32) :
    sout0_C_0 c i a1 h1 a2 h2 a3 h3 hc0 hc1 x xs = k0_pay2 x xs := by
  unfold sout0_C_0
  rw [View.read_writes_eq_canon _ _ _ (scover0_C_0 c i a1 h1 a2 h2 a3 h3 hc0 hc1 x xs)]
  unfold kernelRun0_C
  dsimp only
  sl_unfold_words
  rw [View.canon_unit_zero (S := S1x1000) zeros2]
  simp only [View.readAt_eq_ld, h1.read_unread, h3.read_unread, View.ld_unit_zero (S := S1024x1000) zeros2,
    View.ld_unit_zero (S := S1x1000) zeros2]

/-- The last point: the output block is the scaling step of what the scratch row ends as. -/
theorem output_C (c : Dev nD) (i : grid0.Coords) (a1 : Memref sig .tc .vmem S1024x1000 .f32) (h1 : a1.IsWhole)
    (a2 : Memref sig .tc .vmem S1x1000 .f32) (h2 : a2.IsWhole) (a3 : Memref sig .tc .vmem S1x1000 .f32) (h3 : a3.IsWhole)
    (hc0 : ¬cond0_0 i) (hc1 : cond0_1 i) (x : Vec F S1024x1000 .f32) (xs : Vec F S1x1000 .f32) :
    out0_C_1 c i a1 h1 a2 h2 a3 h3 hc0 hc1 x xs = k0_pay3 (k0_pay2 x xs) := by
  unfold out0_C_1
  rw [View.read_writes_eq_canon _ _ _ (cover0_C_1 c i a1 h1 a2 h2 a3 h3 hc0 hc1 x xs)]
  unfold kernelRun0_C
  dsimp only
  sl_unfold_words
  rw [View.canon_unit_zero (S := S1x1000) zeros2, View.readCov_unit_zero (S := S1x1000) _ zeros2]
  simp only [View.readAt_eq_ld, h1.read_unread, h3.read_unread, View.ld_unit_zero (S := S1024x1000) zeros2,
    View.ld_unit_zero (S := S1x1000) zeros2]

/-- The first point: the scratch row is cleared, then ends as the accumulation step of the block and the cleared row. -/
theorem scratch_A (c : Dev nD) (i : grid0.Coords) (a1 : Memref sig .tc .vmem S1024x1000 .f32) (h1 : a1.IsWhole)
    (a2 : Memref sig .tc .vmem S1x1000 .f32) (h2 : a2.IsWhole) (a3 : Memref sig .tc .vmem S1x1000 .f32) (h3 : a3.IsWhole)
    (hc0 : cond0_0 i) (hc1 : ¬cond0_1 i) (x : Vec F S1024x1000 .f32) :
    sout0_A_0 c i a1 h1 a2 h2 a3 h3 hc0 hc1 x = k0_pay2 x k0_pay1 := by
  unfold sout0_A_0
  rw [View.read_writes_eq_canon _ _ _ (scover0_A_0 c i a1 h1 a2 h2 a3 h3 hc0 hc1 x)]
  unfold kernelRun0_A
  dsimp only
  sl_unfold_words
  rw [View.canon_cons_unit_zero (S := S1x1000) zeros2, View.readCov_unit_zero (S := S1x1000) _ zeros2]
  simp only [View.readAt_eq_ld, h1.read_unread, View.ld_unit_zero (S := S1024x1000) zeros2]

end Cert.KernelIdeal.Cases

end
-- ==== Proof.Accumulation.lean ====
/-
  The running column total, point by point.

  After grid point 0 the scratch row holds the accumulation step of block 0 and the cleared row; after point n + 1 it
  holds the accumulation step of block n + 1 and what it held after point n.  What the generated run records for each
  point is, by induction on the point, exactly this recursion; and at the last point the output block holds the
  scaling step of the final row.
-/
import proofs.«167531_j15410342658796_1_alg».proof.Proof.BodyCases

noncomputable section

open Idealize.ShloMosaic Idealize.ShloMosaic.TcCoe Idealize.SL.Sem

namespace Cert.KernelIdeal.Accum

open Cert.KernelIdeal Cert.KernelIdeal.Gen Cert.KernelIdeal.Cases

variable {F : FTy → Type} [FloatOps F]
variable (m : (ℓ : Loc nD τ sig) → Buf (Elt F) ℓ)

/-- The scratch row after point `n`: the accumulation step folded over blocks 0 … n, from the cleared row. -/
def rowAfter (c : Dev nD) : (n : ℕ) → n < cfg0.N → Vec F S1x1000 .f32
  | 0, h => k0_pay2 (iblk m c 0 ⟨0, h⟩) k0_pay1
  | n + 1, h => k0_pay2 (iblk m c 0 ⟨n + 1, h⟩) (rowAfter c n (Nat.lt_of_succ_lt h))

/-- The scratch component of the generated point-by-point contents is that recursion. -/
theorem scratch_eq (c : Dev nD) : ∀ (n : ℕ) (h : n < cfg0.N), (outsAt0 m c n h).2 = rowAfter m c n h
  | 0, h => by
    rw [outsAt0_A m c ⟨0, h⟩ rfl (by dsimp only; omega)]
    dsimp only
    rw [scratch_A, rowAfter]
  | n + 1, h => by
    have hN : cfg0.N = 64 := N_0
    have h0 : ¬(⟨n + 1, h⟩ : Fin cfg0.N).val % 64 = 0 := by dsimp only; omega
    by_cases h1 : (⟨n + 1, h⟩ : Fin cfg0.N).val % 64 = 63
    · rw [outsAt0_C m c ⟨n + 1, h⟩ h0 h1]
      dsimp only
      rw [scratch_C, rowAfter]
      exact congrArg (k0_pay2 (iblk m c 0 ⟨n + 1, h⟩)) (scratch_eq c n _)
    · rw [outsAt0_B m c ⟨n + 1, h⟩ h0 h1]
      dsimp only
      rw [scratch_B, rowAfter]
      exact congrArg (k0_pay2 (iblk m c 0 ⟨n + 1, h⟩)) (scratch_eq c n _)

/-- At the last point the output block is the scaling step of the final scratch row. -/
theorem output_last (c : Dev nD) (h : 63 < cfg0.N) : (outsAt0 m c 63 h).1 = k0_pay3 (rowAfter m c 63 h) := by
  rw [outsAt0_C m c ⟨63, h⟩ (by dsimp only; omega) (by dsimp only)]
  dsimp only
  rw [output_C, rowAfter]
  exact congrArg (fun a => k0_pay3 (k0_pay2 (iblk m c 0 ⟨63, h⟩) a)) (scratch_eq m c 62 _)

end Cert.KernelIdeal.Accum

end
-- ==== Proof.ResultArray.lean ====
/-
  The output array after the grid.

  The output is one block of one row, whose index never moves; it is written back once, after the last point.  So the
  array ends holding what the last point left in the output block: the scaling step of the final scratch row.
-/
import proofs.«167531_j15410342658796_1_alg».proof.Proof.Accumulation
import Idealize.ShloMosaic.Lib.Pipeline.Value

noncomputable section

open Idealize.ShloMosaic Idealize.ShloMosaic.TcCoe Idealize.SL.Sem
open Idealize.ShloMosaic.Pipeline (Dat)

namespace Cert.KernelIdeal.Result

open Cert.KernelIdeal Cert.KernelIdeal.Gen Cert.KernelIdeal.Accum

variable {F : FTy → Type} [FloatOps F]
variable (m : (ℓ : Loc nD τ sig) → Buf (Elt F) ℓ)

theorem last_lt : 63 < cfg0.N := by rw [show cfg0.N = 64 from N_0]; decide

/-- The last grid point. -/
abbrev tLast : Fin cfg0.N := ⟨63, last_lt⟩

/-- What the output array ends holding: the scaling step of the scratch row after the last point. -/
abbrev result (c : Dev nD) : Buf (Elt F) ((c : Thread nD τ).loc main_v0) := k0_pay3 (rowAfter m c 63 last_lt)

/-- The one write-back, at the last point, writes it: the block at zero offsets of the one-row array is the array. -/
theorem flushed_eq (c : Dev nD) (t : Fin cfg0.N) (hf : (cfg0.win 1).flush t = true) :
    (dats m 0 c).flushed 1 t = ((cfg0.win 1).blk t).view.read (Elt F) (result m c) := by
  have hN : cfg0.N = 64 := N_0
  have h63 : t.val = 63 := by have := (flush0_1 t).mp hf; have := t.isLt; omega
  obtain rfl : t = tLast := Fin.ext h63
  show (cfg0.win 1).cut (grid0.coords tLast) ((dats m 0 c).after 1 tLast) = _
  rw [after0_1]
  show (cfg0.win 1).cut (grid0.coords tLast) (outsAt0 m c 63 last_lt).1 = _
  rw [output_last]
  have hz' : (fun a => win0_1.index tLast a * main_v0.ty.shape.size a) = fun _ => 0 := funext fun a => by fin_cases a <;> decide
  exact (Memref.read_access_unit_zero (Elt F) main_v0 hz' (fun a => by rw [congrFun hz' a]; simp) (result m c)).symm

/-- So the output array ends holding it: the last point's block covers the array. -/
theorem final_array (c : Dev nD) : (dats m 0 c).arrAt 1 cfg0.N = result m c :=
  (dats m 0 c).arrAt_eq_of_cover 1 (result m c) (flushed_eq m c) fun i =>
    ⟨tLast, (flush0_1 tLast).mpr rfl, by
      show i ∈ ((View.whole main_v0).slice (win0_1.rect tLast)).set
      rw [View.set_slice_whole, Rect.mem_set_unit]
      intro a
      have h0 : (i 0 : Nat) < 1 := (i 0).isLt
      have h1 : (i 1 : Nat) < 1000 := (i 1).isLt
      match a with
      | ⟨0, _⟩ => show win0_1.index tLast 0 * win0_1.size 0 ≤ (i 0 : Nat) ∧ (i 0 : Nat) < win0_1.index tLast 0 * win0_1.size 0 + win0_1.xsize (grid0.coords tLast) 0
                  rw [show win0_1.index tLast 0 * win0_1.size 0 = 0 from by decide +kernel, show win0_1.xsize (grid0.coords tLast) 0 = 1 from by decide +kernel]; omega
      | ⟨1, _⟩ => show win0_1.index tLast 1 * win0_1.size 1 ≤ (i 1 : Nat) ∧ (i 1 : Nat) < win0_1.index tLast 1 * win0_1.size 1 + win0_1.xsize (grid0.coords tLast) 1
                  rw [show win0_1.index tLast 1 * win0_1.size 1 = 0 from by decide +kernel, show win0_1.xsize (grid0.coords tLast) 1 = 1000 from by decide +kernel]; omega⟩

end Cert.KernelIdeal.Result

end
-- ==== Proof.RowSoftmax.lean ====
/-
  The softmax of a row scaled to unit length, and its column totals, on the extended reals.

  For a row `v` of extended reals:
    * its scale is its Euclidean length plus the small constant ε (the f32 word 0x33D6BF95): `√(∑ vₖ²) + ε`;
    * the normed row is `vₖ / scale`;
    * its peak is the maximum of the normed row, folded from `-∞`;
    * the weights are `exp (normed vₖ - peak)`, and the row's probabilities are the weights over their sum.
  A matrix's class confidence at column `j` is the total over its rows of each row's probability at `j`; the mean
  confidence divides that total by the number of rows.

  Two facts join a computation that multiplies the total by the f32 word of 2⁻¹⁶ to one that divides it by the f32
  word of 65536: each word denotes exactly that dyadic number, and on the extended reals dividing by a nonzero
  real IS multiplying by its reciprocal — at the infinities too, so no entry has to be finite.
-/
import Idealize.ShloMosaic.PureOps.Ideal
import Idealize.ShloMosaic.Lib.ValueIdx

noncomputable section

open scoped BigOperators

namespace Cert.RowSoftmax

open Idealize.ShloMosaic Idealize.ShloMosaic.ValueIdx

section Row

variable {n : ℕ}

/-- The row's Euclidean length plus ε. -/
def rowScale (v : Fin n → EReal) : EReal := Ideal.sqrt (∑ k, v k * v k) + Ideal.ofBits .f32 0x33D6BF95#32

/-- The row divided by its scale. -/
def rowNormed (v : Fin n → EReal) (k : Fin n) : EReal := Ideal.div (v k) (rowScale v)

/-- The largest entry of the normed row (`-∞` for an empty row). -/
def rowPeak (v : Fin n → EReal) : EReal := (Finset.univ : Finset (Fin n)).fold max ⊥ (rowNormed v)

/-- The exponential of each normed entry's distance below the peak. -/
def rowWeight (v : Fin n → EReal) (k : Fin n) : EReal := Ideal.exp (rowNormed v k - rowPeak v)

/-- The row's probabilities: each weight over the sum of the weights. -/
def rowProb (v : Fin n → EReal) (k : Fin n) : EReal := Ideal.div (rowWeight v k) (∑ l, rowWeight v l)

end Row

/-- Row `r` of a matrix. -/
def row {a b : ℕ} (X : (⟨2, ![a, b]⟩ : Shape).Idx → EReal) (r : Fin a) : Fin b → EReal := fun k => X (ix2 r k)

/-- The class confidence total at column `j`: the sum over the rows of each row's probability at `j`. -/
def colTotal {a b : ℕ} (X : (⟨2, ![a, b]⟩ : Shape).Idx → EReal) (j : Fin b) : EReal := ∑ r : Fin a, rowProb (row X r) j

/-- The f32 word 0xFF800000 is `-∞`. -/
theorem ofBits_negInf : Ideal.ofBits .f32 0xFF800000#32 = ⊥ := by
  simp [Ideal.ofBits, Ideal.ieee]

/-- The f32 word 0x00000000 is `0`. -/
theorem ofBits_zero : Ideal.ofBits .f32 0x00000000#32 = 0 := by
  simp [Ideal.ofBits, Ideal.ieee]

/-- The f32 word 0x47800000 is `65536`. -/
theorem ofBits_65536 : Ideal.ofBits .f32 0x47800000#32 = ((65536 : ℝ) : EReal) := by
  simp [Ideal.ofBits, Ideal.ieee, -EReal.coe_mul]; norm_num

/-- The f32 word 0x37800000 is `2⁻¹⁶ = 1 / 65536`. -/
theorem ofBits_inv65536 : Ideal.ofBits .f32 0x37800000#32 = ((1 / 65536 : ℝ) : EReal) := by
  simp [Ideal.ofBits, Ideal.ieee, -EReal.coe_mul]; norm_num

/-- Scaling a total by 2⁻¹⁶ is dividing it by 65536, for every extended real. -/
theorem scaled_eq_mean (S : EReal) :
    S * Ideal.ofBits .f32 0x37800000#32 = Ideal.div S (Ideal.ofBits .f32 0x47800000#32) := by
  rw [ofBits_65536, ofBits_inv65536, Ideal.div_coe (by norm_num)]

end Cert.RowSoftmax

end
-- ==== Proof.LibAxisReduce.lean ====
/-
  Reductions along one axis of a matrix, read at an index, on the extended reals (general: any extents).

  * `laneMax_apply`: the maximum along the rows of an [a, b] matrix, folded from the accumulator's value, read at row
    `i`, is the fold of `max` over the entries of row `i`;
  * `rowsSum_apply`: the sum down the columns (over the row axis) read at column `j` is the sum of column `j`;
  * `hostLaneMax_apply`: the host's reduce with a maximum body along the rows, read at row `i`, is the fold of `max`
    from the initial value over the entries of row `i`.
-/
import Idealize.ShloMosaic.PureOps.Ideal.Laws
import Idealize.ShloMosaic.Lib.ValueIdx

noncomputable section

open scoped BigOperators

open Idealize.ShloMosaic Idealize.ShloMosaic.ValueIdx

namespace Cert.AxisReduce

/-- The reduced index `i` of an [a, b] matrix reduced along its rows, with position `k` put back, is `(i, k)`. -/
theorem lift_lane {a b : Nat} (h : (⟨2, ![a, b]⟩ : Shape).Reduces [1] ⟨1, ![a]⟩) (i : Fin a) (k : Fin b) :
    h.lift (ix1 i) k = ix2 i k := by
  funext d; apply Fin.ext
  match d with
  | ⟨0, _⟩ => rfl
  | ⟨1, _⟩ => rfl

/-- The reduced index `j` of an [a, b] matrix reduced over its row axis, with row `r` put back, is `(r, j)`. -/
theorem lift_rows {a b : Nat} (h : (⟨2, ![a, b]⟩ : Shape).Reduces [0] ⟨1, ![b]⟩) (j : Fin b) (r : Fin a) :
    h.lift (ix1 j) r = ix2 r j := by
  funext d; apply Fin.ext
  match d with
  | ⟨0, _⟩ => rfl
  | ⟨1, _⟩ => rfl

/-- The maximum of an `a × b` matrix along its rows, read at `i`: the fold of `max`, from the accumulator's value,
    over row `i`. -/
theorem laneMax_apply {a b : Nat} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  show (Finset.univ : Finset (Fin b)).fold max (Ideal.ofBits φ acc) (fun k => src (h.lift (ix1 i) k)) = _
  refine congrArg (fun f => Finset.fold max (Ideal.ofBits φ acc) f (Finset.univ : Finset (Fin b))) ?_
  funext k
  exact congrArg src (lift_lane h i k)

/-- The sum of an `a × b` matrix over its row axis, read at column `j`: the sum of column `j`. -/
theorem rowsSum_apply {a b : Nat} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ r : Fin a, src (ix2 r j) := by
  rw [Ideal.multiReduction_add_single]
  show (∑ r : Fin a, src (h.lift (ix1 j) r)) = _
  refine Finset.sum_congr rfl fun r _ => ?_
  rw [lift_rows]

/-- The host's reduce with a maximum body along the rows of an `a × b` matrix, read at `i`: the fold of `max`, from
    the initial value, over row `i`. -/
theorem hostLaneMax_apply {a b : Nat} {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduce FloatOps.maximumf x init h' hu (ix1 i)
      = (Finset.univ : Finset (Fin b)).fold max (init (Shape.Idx.first hu)) (fun k => x (ix2 i k)) := by
  rw [Host.reduce_eq_fold_single FloatOps.maximumf x init h' h hu]
  show (Finset.univ : Finset (Fin b)).fold max (init (Shape.Idx.first hu)) (fun k => x (h.lift (ix1 i) k)) = _
  refine congrArg (fun f => Finset.fold max (init (Shape.Idx.first hu)) f (Finset.univ : Finset (Fin b))) ?_
  funext k
  exact congrArg x (lift_lane h i k)

end Cert.AxisReduce

end
-- ==== Proof.ReferenceValue.lean ====
/-
  The reference's mean class confidence, read entry by entry.

  The reference computes, over the whole 65536 × 1000 matrix at once, the same six row-wise quantities as one block of
  the kernel: the scale, the normed matrix, the peak, the weights, the weights' sum, the probabilities.  Each is read at
  an entry `(R, k)` as the corresponding quantity of row `R`.  Its sums start from the word of zero, which adds nothing;
  its peak is the larger of `-∞` and the maximum folded from `-∞`, which is that maximum.  The mean confidence at
  column `j` is the class confidence total at `j` divided by the word of 65536.
-/
import proofs.«167531_j15410342658796_1_alg».proof.Proof.Gen.ReferenceIdeal.Read
import proofs.«167531_j15410342658796_1_alg».proof.Proof.RowSoftmax
import proofs.«167531_j15410342658796_1_alg».proof.Proof.LibAxisReduce

noncomputable section

open scoped BigOperators

open Idealize.ShloMosaic Idealize.ShloMosaic.ValueIdx

namespace Cert.ReferenceIdeal.RefValue

open Cert.ReferenceIdeal Cert.ReferenceIdeal.Gen Cert.ReferenceIdeal.Read Cert.RowSoftmax Cert.AxisReduce

/-! ### The composed index maps at literal positions -/

theorem idx_sumSq (R : Fin 65536) (k : Fin 1000) : idx_main_call0_v1 (ix1 R) k = ix2 R k := funext fun a => Fin.ext (by match a with | ⟨0, _⟩ => rfl | ⟨1, _⟩ => rfl)
theorem idx_mass (R : Fin 65536) (k : Fin 1000) : idx_main_v12 (ix1 R) k = ix2 R k := funext fun a => Fin.ext (by match a with | ⟨0, _⟩ => rfl | ⟨1, _⟩ => rfl)
theorem idx_total (j : Fin 1000) (R : Fin 65536) : idx_main_v16 (ix1 j) R = ix2 R j := funext fun a => Fin.ext (by match a with | ⟨0, _⟩ => rfl | ⟨1, _⟩ => rfl)
theorem idx_col0 (R : Fin 65536) (z : Fin 1) : idx_main_call0_v2 (ix2 R z) = ix1 R := funext fun a => Fin.ext (by match a with | ⟨0, _⟩ => rfl)
theorem idx_col8 (R : Fin 65536) (z : Fin 1) : idx_main_v8 (ix2 R z) = ix1 R := funext fun a => Fin.ext (by match a with | ⟨0, _⟩ => rfl)
theorem idx_col13 (R : Fin 65536) (z : Fin 1) : idx_main_v13 (ix2 R z) = ix1 R := funext fun a => Fin.ext (by match a with | ⟨0, _⟩ => rfl)
theorem idx_spread3 (R : Fin 65536) (k : Fin 1000) : idx_main_v3 (ix2 R k) = ix2 R (0 : Fin 1) := funext fun a => Fin.ext (by match a with | ⟨0, _⟩ => rfl | ⟨1, _⟩ => rfl)
theorem idx_spread9 (R : Fin 65536) (k : Fin 1000) : idx_main_v9 (ix2 R k) = ix2 R (0 : Fin 1) := funext fun a => Fin.ext (by match a with | ⟨0, _⟩ => rfl | ⟨1, _⟩ => rfl)
theorem idx_spread14 (R : Fin 65536) (k : Fin 1000) : idx_main_v14 (ix2 R k) = ix2 R (0 : Fin 1) := funext fun a => Fin.ext (by match a with | ⟨0, _⟩ => rfl | ⟨1, _⟩ => rfl)

variable (X : FVec Ideal S65536x1000 .f32)

theorem sumSq_apply (R : Fin 65536) : val_main_call0_v1 (F := Ideal) X (ix1 R) = ∑ k : Fin 1000, X (ix2 R k) * X (ix2 R k) := by
  rw [val_main_call0_v1_apply, val_main_call0_cst_apply, Ideal.ofBits_def, ofBits_zero, zero_add]
  refine Finset.sum_congr rfl fun k _ => ?_
  rw [val_main_call0_v0_apply, idx_sumSq]
  rfl

theorem scale_apply (R : Fin 65536) (k : Fin 1000) : val_main_v3 (F := Ideal) X (ix2 R k) = rowScale (row X R) := by
  rw [val_main_v3_apply, idx_spread3, val_main_v2_apply, val_main_v0_apply, val_main_call0_v2_apply, idx_col0, sumSq_apply,
    val_main_v1_apply, val_main_cst_apply]
  rfl

theorem normed_apply (R : Fin 65536) (k : Fin 1000) : val_main_v4 (F := Ideal) X (ix2 R k) = rowNormed (row X R) k := by
  rw [val_main_v4_apply, scale_apply]
  rfl

theorem peak_apply (R : Fin 65536) (k : Fin 1000) : val_main_v9 (F := Ideal) X (ix2 R k) = rowPeak (row X R) := by
  rw [val_main_v9_apply, idx_spread9, val_main_v8_apply, idx_col8, val_main_v7_apply, val_main_v6_apply, val_main_cst_1_apply]
  unfold val_main_v5
  rw [hostLaneMax_apply (val_main_v4 (F := Ideal) X) (val_main_cst_0 (F := Ideal)) reducesTo_S65536x1000_S65536_d1 (by decide) h_S_ R,
    val_main_cst_0_apply, Ideal.maximumf_def, Ideal.ofBits_def, ofBits_negInf, max_eq_right bot_le]
  simp only [normed_apply]
  rfl

theorem weight_apply (R : Fin 65536) (k : Fin 1000) : val_main_v11 (F := Ideal) X (ix2 R k) = rowWeight (row X R) k := by
  rw [val_main_v11_apply, val_main_v10_apply, normed_apply, peak_apply]
  rfl

theorem mass_apply (R : Fin 65536) (k : Fin 1000) :
    val_main_v14 (F := Ideal) X (ix2 R k) = ∑ l : Fin 1000, rowWeight (row X R) l := by
  rw [val_main_v14_apply, idx_spread14, val_main_v13_apply, idx_col13, val_main_v12_apply, val_main_cst_2_apply, Ideal.ofBits_def,
    ofBits_zero, zero_add]
  refine Finset.sum_congr rfl fun l _ => ?_
  rw [idx_mass, weight_apply]

theorem prob_apply (R : Fin 65536) (k : Fin 1000) : val_main_v15 (F := Ideal) X (ix2 R k) = rowProb (row X R) k := by
  rw [val_main_v15_apply, weight_apply, mass_apply]
  rfl

/-- The reference's class confidence total at column `j`. -/
theorem total_apply (j : Fin 1000) : val_main_v16 (F := Ideal) X (ix1 j) = colTotal X j := by
  rw [val_main_v16_apply, val_main_cst_3_apply, Ideal.ofBits_def, ofBits_zero, zero_add]
  unfold colTotal
  refine Finset.sum_congr rfl fun R _ => ?_
  rw [idx_total, prob_apply]

/-- The reference's mean class confidence at column `j`: the class confidence total divided by the word of 65536. -/
theorem mean_apply (j : Fin 1000) :
    val_main_v18 (F := Ideal) X (ix1 j) = Ideal.div (colTotal X j) (Ideal.ofBits .f32 0x47800000#32) := by
  rw [val_main_v18_apply, total_apply, val_main_v17_apply, val_main_cst_4_apply]
  rfl

/-! ### The calibration gap, as one function of the mean confidence and the targets

Both programs finish with the same host operations: count each class's targets, divide the counts by 65536, subtract
from the mean confidence, take absolute values and average over the 1000 classes.  That chain is named once and never
opened: the two results are equal because the mean confidences going in are. -/

section Gap

variable {F : FTy → Type} [FloatOps F]

/-- The mean over the classes of `|mean confidence − class frequency|`. -/
def gapOf (avg : FVec F S1000 .f32) (tgt : (⟨S65536, .i32⟩ : BufTy).Contents (Elt F)) : FVec F S_ .f32 :=
  Host.divf (Host.reduceAdd (Host.absf (subf avg (val_main_v29 (F := F) tgt))) (val_main_cst_9 (F := F)) reducesTo_S1000_S_d0 h_S_)
    (val_main_cst_10 (F := F))

/-- The reference's result is the gap of its mean confidence. -/
theorem result_eq (X0 : FVec F S65536x1000 .f32) (tgt : (⟨S65536, .i32⟩ : BufTy).Contents (Elt F)) :
    val_main_v33 (F := F) X0 tgt = gapOf (val_main_v18 (F := F) X0) tgt := rfl

end Gap

end Cert.ReferenceIdeal.RefValue

end
-- ==== Proof.KernelResult.lean ====
/-
  The kernel program's result.

  After the grid the program reshapes the one-row output array to a vector of 1000 mean confidences and applies the
  calibration-gap chain to it and to the targets.  The array is what the last point wrote; the targets are read where
  they were launched; so the result is the gap of the reshaped output array.
-/
import proofs.«167531_j15410342658796_1_alg».proof.Proof.ResultArray
import proofs.«167531_j15410342658796_1_alg».proof.Proof.ReferenceValue
import Idealize.ShloMosaic.Lib.StableHlo.Run
import Idealize.ShloMosaic.Lib.Tactic

noncomputable section

open Idealize.ShloMosaic Idealize.ShloMosaic.TcCoe Idealize.SL.Sem Idealize.ShloMosaic.StableHlo

namespace Cert.KernelIdeal.Tail

open Cert.KernelIdeal Cert.KernelIdeal.Gen Cert.KernelIdeal.Result
open Cert.ReferenceIdeal.RefValue (gapOf)

variable {F : FTy → Type} [FloatOps F]
variable (m : (ℓ : Loc nD τ sig) → Buf (Elt F) ℓ) (ρ : Dev nD → PrngReg)

/-- The output array reshaped to the vector of mean confidences. -/
abbrev meanConf (c : Dev nD) : FVec F S1000 .f32 := shapeCast S1000 (result m c) shapeCasts_S1x1000_S1000

/-- What the host operations after the grid leave in the result buffer. -/
theorem tail_value (c : Dev nD) :
    Pipeline.afterTail₀ cfgs (dats m) 0 (V0 m) [hostOps1] c main_v16
      = gapOf (meanConf m c) (m ((c : Thread nD τ).loc main_arg1)) := by
  unfold Pipeline.afterTail₀
  show StableHlo.after hostOps1 _ (Proc.devRef .tc main_v16) = _
  after_results
  have e0 : Pipeline.withArrays (cfgs 0).spec c (V0 m c) (fun w => (dats m 0 c).arrAt w (cfgs 0).N) (Proc.devRef .tc main_v0)
      = result m c :=
    (Pipeline.withArrays_arr spec0 launch0.win.arr_inj c _ _ 1).trans (final_array m c)
  have e1 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans
      (V_main_arg1 m c)
  rw [e0, e1]
  rfl

/-- The run, read: the result buffer at the gap of the mean confidences, the arguments unchanged. -/
theorem run : θ_run defs (onTc (τ := τ) (main (F := F))) ⟨m, fun _ => 0, ρ⟩ fun r => ∀ c : Dev nD,
      r.2.mem ((c.tc : Thread nD τ).loc main_v16) = gapOf (meanConf m c) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v16 (Pipeline.mem_restRefs_of main_v16 (by decide) (by decide))).trans (tail_value m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c)⟩)
    (run_main m ρ)

end Cert.KernelIdeal.Tail

end
-- ==== Proof.LibMatRows.lean ====
/-
  Matrices read by row and column, on the extended reals.

  General lemmas, for any extents: a matrix product into a zero accumulator read at `(i, j)` as the sum over
  `l` of `A (i, l) · B (l, j)`; the sum of a matrix along its rows read at `i` as the sum of row `i`; a vector
  viewed as a one-column matrix; a one-column matrix spread over many columns; and two blocks of equal width
  set side by side.  Indices are built from their coordinates (`ix2`, `ix1`), so every lemma rewrites a term
  at a literal position.
-/
import Idealize.ShloMosaic.PureOps.Ideal.Laws
import Idealize.ShloMosaic.Lib.ValueIdx
import Idealize.ShloMosaic.Lib.ValueLayout
import Idealize.ShloMosaic.Lib.Pipeline.Value

noncomputable section

open Idealize.ShloMosaic Idealize.ShloMosaic.ValueIdx

namespace Cert.MatRows

variable {α : Type}

/-- A product of an `M × K` by a `K × N` matrix into a zero accumulator, read at `(i, j)`: the sum over the
    contracted position `l` of `A (i, l) · B (l, j)`.  The four hypotheses say which coordinate of each operand
    index is the row, the column and the contracted position; at a literal record each holds by computation. -/
theorem matmul_zero_apply {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val) (hl1 : ∀ j k, (d.lhsIdx j k 1).val = (k ⟨0, by omega⟩).val)
    (hr0 : ∀ j k, (d.rhsIdx j k 0).val = (k ⟨0, by omega⟩).val) (hr1 : ∀ j k, (d.rhsIdx j k 1).val = (j 1).val)
    (A : FVec Ideal ⟨2, ![M, K]⟩ φ₁) (B : FVec Ideal ⟨2, ![K, N]⟩ φ₂) (i : Fin M) (j : Fin N) :
    matmul d none A B (constant ⟨2, ![M, N]⟩ .f32 0x00000000#32) (ix2 i j) = ∑ l : Fin K, A (ix2 i l) * B (ix2 l j) := by
  show FloatOps.matmul d none A B (constant ⟨2, ![M, N]⟩ .f32 0x00000000#32) (ix2 i j) = _
  rw [Ideal.matmul_constant_zero_apply, ← Equiv.sum_comp (contrEquiv1 d K hr hs).symm]
  refine Finset.sum_congr rfl fun l _ => ?_
  have e1 : d.lhsIdx (ix2 i j) ((contrEquiv1 d K hr hs).symm l) = ix2 i l := by
    funext a; apply Fin.ext
    match a with
    | ⟨0, _⟩ => exact hl0 _ _
    | ⟨1, _⟩ => exact (hl1 _ _).trans (contrEquiv1_symm_val d K hr hs l)
  have e2 : d.rhsIdx (ix2 i j) ((contrEquiv1 d K hr hs).symm l) = ix2 l j := by
    funext a; apply Fin.ext
    match a with
    | ⟨0, _⟩ => exact (hr0 _ _).trans (contrEquiv1_symm_val d K hr hs l)
    | ⟨1, _⟩ => exact hr1 _ _
  rw [e1, e2]

/-- The sum of an `a × b` matrix along its rows, read at `i`: the sum of row `i`. -/
theorem laneSum_apply {a b : Nat} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  rw [Ideal.multiReduction_add_single]
  show (∑ k : Fin b, src (h.lift (ix1 i) k)) = _
  refine Finset.sum_congr rfl fun k _ => congrArg src ?_
  funext d; apply Fin.ext
  match d with
  | ⟨0, _⟩ => rfl
  | ⟨1, _⟩ => rfl

/-- A vector of length `a` viewed as an `a × 1` matrix reads, at `(i, 0)`, the vector at `i`. -/
theorem colCast_apply {a : Nat} (v : (⟨1, ![a]⟩ : Shape).Idx → α) (h : (⟨1, ![a]⟩ : Shape).ShapeCasts ⟨2, ![a, 1]⟩)
    (i : Fin a) (z : Fin 1) : shapeCast ⟨2, ![a, 1]⟩ v h (ix2 i z) = v (ix1 i) := by
  refine shapeCast_apply v h (ix2 i z) (ix1 i) ?_
  rw [Shape.rowMajor_val_one, Shape.rowMajor_val_two]
  show i.val = i.val * 1 + z.val
  have := z.isLt; omega

/-- An `a × 1` matrix spread over `b` columns reads, at `(i, j)`, its one column at `i`. -/
theorem colBroadcast_apply {a b : Nat} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Two `a × w` blocks set side by side into an `a × n` matrix, `n = w + w`: column `j < w` of the result is
    column `j` of the first block. -/
theorem sideBySide_left {a w n : Nat} (hn : n = w + w) (x y : (⟨2, ![a, w]⟩ : Shape).Idx → α)
    (h : Shape.Concatenates (([⟨⟨2, ![a, w]⟩, x⟩, ⟨⟨2, ![a, w]⟩, y⟩] : List ((s : Shape) × (s.Idx → α))).map (·.1)) ⟨2, ![a, n]⟩ 1)
    (i : Fin a) (j : Fin w) (j' : Fin n) (hj : j'.val = j.val) :
    concatenate ⟨2, ![a, n]⟩ 1 [⟨⟨2, ![a, w]⟩, x⟩, ⟨⟨2, ![a, w]⟩, y⟩] h (ix2 i j') = x (ix2 i j) := by
  subst hn
  exact concatenate_ofFn_apply (t := ⟨2, ![a, w + w]⟩) (s₁ := ⟨2, ![a, w]⟩) 1 (N := 2) (fun n => (![x, y] : Fin 2 → _) n) h rfl w rfl
    (ix2 i j') 0 (by show j'.val / w = 0; rw [hj]; exact Nat.div_eq_of_lt j.isLt) (ix2 i j)
    (by show j.val = j'.val % w; rw [hj, Nat.mod_eq_of_lt j.isLt])
    (fun b hb => by
      match b with
      | ⟨0, _⟩ => rfl
      | ⟨1, _⟩ => exact absurd rfl hb)

/-- … and column `w + j` of the result is column `j` of the second block. -/
theorem sideBySide_right {a w n : Nat} (hn : n = w + w) (x y : (⟨2, ![a, w]⟩ : Shape).Idx → α)
    (h : Shape.Concatenates (([⟨⟨2, ![a, w]⟩, x⟩, ⟨⟨2, ![a, w]⟩, y⟩] : List ((s : Shape) × (s.Idx → α))).map (·.1)) ⟨2, ![a, n]⟩ 1)
    (i : Fin a) (j : Fin w) (j' : Fin n) (hj : j'.val = w + j.val) :
    concatenate ⟨2, ![a, n]⟩ 1 [⟨⟨2, ![a, w]⟩, x⟩, ⟨⟨2, ![a, w]⟩, y⟩] h (ix2 i j') = y (ix2 i j) := by
  subst hn
  have hw : 0 < w := by have := j.isLt; omega
  exact concatenate_ofFn_apply (t := ⟨2, ![a, w + w]⟩) (s₁ := ⟨2, ![a, w]⟩) 1 (N := 2) (fun n => (![x, y] : Fin 2 → _) n) h rfl w rfl
    (ix2 i j') 1 (by show j'.val / w = 1; rw [hj, Nat.add_div_left _ hw, Nat.div_eq_of_lt j.isLt]) (ix2 i j)
    (by show j.val = j'.val % w; rw [hj, Nat.add_mod_left, Nat.mod_eq_of_lt j.isLt])
    (fun b hb => by
      match b with
      | ⟨0, _⟩ => rfl
      | ⟨1, _⟩ => exact absurd rfl hb)

end Cert.MatRows

end
-- ==== Proof.BlockValue.lean ====
/-
  One block of 1024 rows through the kernel body, read entry by entry.

  The accumulation step takes a block `x` of 1024 rows of 1000 entries and a row `acc` of 1000 running totals and
  returns `acc` plus, column by column, the sum over the block's rows of each row's probabilities.  The body computes
  the probabilities through six intermediate matrices, each a row-wise quantity spread back over the row: the scale,
  the normed block, the peak, the weights, the weights' sum, the probabilities.  Each is named here and read at an
  entry `(r, k)` as the corresponding quantity of row `r` of the block; the cleared row is zero everywhere and the
  scaling step multiplies each entry by the word of 2⁻¹⁶.
-/
import proofs.«167531_j15410342658796_1_alg».proof.Proof.Gen.KernelIdeal.Skeleton
import proofs.«167531_j15410342658796_1_alg».proof.Proof.RowSoftmax
import proofs.«167531_j15410342658796_1_alg».proof.Proof.LibMatRows
import proofs.«167531_j15410342658796_1_alg».proof.Proof.LibAxisReduce
import Idealize.ShloMosaic.Lib.ValueLayout
import Idealize.ShloMosaic.Lib.Pipeline.Value

noncomputable section

open scoped BigOperators

open Idealize.ShloMosaic Idealize.ShloMosaic.ValueIdx

namespace Cert.KernelIdeal.Block

open Cert.KernelIdeal Cert.KernelIdeal.Gen Cert.RowSoftmax Cert.MatRows Cert.AxisReduce

section Stages

variable {F : FTy → Type} [FloatOps F]

/-- Each row's scale, spread over the row. -/
def scaleB (x : FVec F S1024x1000 .f32) : FVec F S1024x1000 .f32 :=
  broadcastTo S1024x1000 (addf (sqrt (shapeCast S1024x1 (multiReduction .add [1] S1024 (mulf x x) 0x00000000#32 reduces_S1024x1000_S1024 (.inl rfl) rfl) shapeCasts_S1024_S1024x1))
    (broadcast S1024x1 (Scalar.ofBits .f32 0x33D6BF95#32))) broadcasts_S1024x1_S1024x1000

/-- The block with each row divided by its scale. -/
def normedB (x : FVec F S1024x1000 .f32) : FVec F S1024x1000 .f32 := divf x (scaleB x)

/-- Each normed row's peak, spread over the row. -/
def peakB (x : FVec F S1024x1000 .f32) : FVec F S1024x1000 .f32 :=
  broadcastTo S1024x1000 (shapeCast S1024x1 (multiReduction .maximumf [1] S1024 (normedB x) 0xFF800000#32 reduces_S1024x1000_S1024 (.inl rfl) rfl)
    shapeCasts_S1024_S1024x1) broadcasts_S1024x1_S1024x1000

/-- The weights. -/
def weightB (x : FVec F S1024x1000 .f32) : FVec F S1024x1000 .f32 := exp (subf (normedB x) (peakB x))

/-- Each row's sum of weights, spread over the row. -/
def massB (x : FVec F S1024x1000 .f32) : FVec F S1024x1000 .f32 :=
  broadcastTo S1024x1000 (shapeCast S1024x1 (multiReduction .add [1] S1024 (weightB x) 0x00000000#32 reduces_S1024x1000_S1024 (.inl rfl) rfl) shapeCasts_S1024_S1024x1)
    broadcasts_S1024x1_S1024x1000

/-- The probabilities. -/
def probB (x : FVec F S1024x1000 .f32) : FVec F S1024x1000 .f32 := divf (weightB x) (massB x)

/-- The block's column sums of probabilities, as a one-row matrix. -/
def colSumB (x : FVec F S1024x1000 .f32) : FVec F S1x1000 .f32 :=
  shapeCast S1x1000 (multiReduction .add [0] S1000 (probB x) 0x00000000#32 reduces_S1024x1000_S1000 (.inl rfl) rfl) shapeCasts_S1000_S1x1000

/-- The accumulation step is the running totals plus the block's column sums. -/
theorem accumulate_eq (x : FVec F S1024x1000 .f32) (acc : FVec F S1x1000 .f32) :
    k0_pay2 x acc = shapeCast S1x1000 (addf acc (colSumB x)) shapeCasts_S1x1000_S1x1000 := rfl

end Stages

section AtAnEntry

variable (x : FVec Ideal S1024x1000 .f32)

theorem scaleB_apply (r : Fin 1024) (k : Fin 1000) : scaleB x (ix2 r k) = rowScale (row x r) := by
  unfold scaleB
  rw [colBroadcast_apply]
  show Ideal.sqrt (shapeCast S1024x1 _ shapeCasts_S1024_S1024x1 (ix2 r (0 : Fin 1))) + Ideal.ofBits .f32 0x33D6BF95#32 = _
  rw [colCast_apply]
  exact congrArg (fun s => Ideal.sqrt s + Ideal.ofBits .f32 0x33D6BF95#32) (laneSum_apply (mulf x x) _ _ _ _ r)

theorem normedB_apply (r : Fin 1024) (k : Fin 1000) : normedB x (ix2 r k) = rowNormed (row x r) k := by
  show Ideal.div (x (ix2 r k)) (scaleB x (ix2 r k)) = _
  rw [scaleB_apply]
  rfl

theorem peakB_apply (r : Fin 1024) (k : Fin 1000) : peakB x (ix2 r k) = rowPeak (row x r) := by
  unfold peakB
  rw [colBroadcast_apply, colCast_apply]
  refine (laneMax_apply (normedB x) _ _ _ _ r).trans ?_
  rw [ofBits_negInf]
  simp only [normedB_apply]
  rfl

theorem weightB_apply (r : Fin 1024) (k : Fin 1000) : weightB x (ix2 r k) = rowWeight (row x r) k := by
  show Ideal.exp (normedB x (ix2 r k) - peakB x (ix2 r k)) = _
  rw [normedB_apply, peakB_apply]
  rfl

theorem massB_apply (r : Fin 1024) (k : Fin 1000) : massB x (ix2 r k) = ∑ l : Fin 1000, rowWeight (row x r) l := by
  unfold massB
  rw [colBroadcast_apply, colCast_apply]
  refine (laneSum_apply (weightB x) _ _ _ _ r).trans ?_
  simp only [weightB_apply]

theorem probB_apply (r : Fin 1024) (k : Fin 1000) : probB x (ix2 r k) = rowProb (row x r) k := by
  show Ideal.div (weightB x (ix2 r k)) (massB x (ix2 r k)) = _
  rw [weightB_apply, massB_apply]
  rfl

theorem colSumB_apply (z : Fin 1) (j : Fin 1000) : colSumB x (ix2 z j) = colTotal x j := by
  unfold colSumB
  rw [shapeCast_a_1a_apply]
  refine (rowsSum_apply (probB x) _ _ _ _ j).trans ?_
  simp only [probB_apply]
  rfl

/-- The accumulation step at column `j`: the running total there plus the block's class confidence total at `j`. -/
theorem accumulate_apply (acc : FVec Ideal S1x1000 .f32) (z : Fin 1) (j : Fin 1000) :
    k0_pay2 (F := Ideal) x acc (ix2 z j) = acc (ix2 z j) + colTotal x j := by
  rw [accumulate_eq, shapeCast_self]
  show acc (ix2 z j) + colSumB x (ix2 z j) = _
  rw [colSumB_apply]

/-- The cleared row is zero everywhere. -/
theorem cleared_apply (i : S1x1000.Idx) : k0_pay1 (F := Ideal) i = 0 := by
  unfold k0_pay1
  rw [shapeCast_self]
  exact ofBits_zero

/-- The scaling step multiplies each entry by the word of 2⁻¹⁶. -/
theorem scale_apply (acc : FVec Ideal S1x1000 .f32) (i : S1x1000.Idx) :
    k0_pay3 (F := Ideal) acc i = acc i * Ideal.ofBits .f32 0x37800000#32 := rfl

end AtAnEntry

end Cert.KernelIdeal.Block

end
-- ==== Proof.LibBlockedSum.lean ====
/-
  A sum over a long axis taken block by block.

  A kernel that walks a reduction axis of length `nb * bs` in `nb` blocks of `bs` consecutive positions, adding each
  block's partial sum into an accumulator, computes the same number as one sum over the whole axis: position `k` of the
  long axis is position `l` of block `kb` exactly when `k = kb * bs + l`.  The statement holds in any commutative
  additive monoid — in particular for extended reals, where no finiteness is needed — and is phrased for a summand
  given on the natural numbers, so that it applies whatever index types the two sides use.
-/
import Mathlib.Algebra.BigOperators.Fin
import Mathlib.Logic.Equiv.Fin.Basic

namespace Cert.LibBlockedSum

/-- Summing `f` over block `kb` and position `l` inside the block, at the flat position `kb * bs + l`, is summing `f`
    over the flat positions `0 … nb * bs - 1`. -/
theorem sum_blocks {M : Type} [AddCommMonoid M] (nb bs : ℕ) (f : ℕ → M) :
    (∑ kb : Fin nb, ∑ l : Fin bs, f (kb.val * bs + l.val)) = ∑ k : Fin (nb * bs), f k.val := by
  rw [← (finProdFinEquiv : Fin nb × Fin bs ≃ Fin (nb * bs)).sum_comp (fun k => f k.val), Fintype.sum_prod_type]
  refine Finset.sum_congr rfl fun a _ => Finset.sum_congr rfl fun b _ => ?_
  refine congrArg f ?_
  simp only [finProdFinEquiv_apply_val]
  rw [Nat.mul_comm, Nat.add_comm]

/-- The accumulator form: starting from `z` and adding the blocks' partial sums one after the other (a left fold over
    the blocks in order) ends at `z` plus the whole sum. -/
theorem foldl_blocks {M : Type} [AddCommMonoid M] (nb bs : ℕ) (f : ℕ → M) (z : M) :
    ((List.finRange nb).foldl (fun acc kb => acc + ∑ l : Fin bs, f (kb.val * bs + l.val)) z)
      = z + ∑ k : Fin (nb * bs), f k.val := by
  rw [← sum_blocks nb bs f]
  have h : ∀ (L : List (Fin nb)) (z : M),
      L.foldl (fun acc kb => acc + ∑ l : Fin bs, f (kb.val * bs + l.val)) z
        = z + (L.map fun kb => ∑ l : Fin bs, f (kb.val * bs + l.val)).sum := by
    intro L
    induction L with
    | nil => intro z; simp
    | cons a L ih => intro z; rw [List.foldl_cons, ih, List.map_cons, List.sum_cons, add_assoc]
  rw [h, ← List.ofFn_eq_map, List.sum_ofFn]

end Cert.LibBlockedSum
-- ==== Proof.ResultValue.lean ====
/-
  The output array, entry by entry: the class confidence total of the whole matrix, scaled.

  Block `t` of the argument matrix holds its rows `1024 t … 1024 t + 1023`, so row `r` of block `t` is row `1024 t + r`
  of the matrix and the block's class confidence total at a column is the sum of those rows' probabilities there.  The
  scratch row after point `n` therefore holds, at column `j`, the sum over the blocks `0 … n` and over the rows inside
  each block — which, after the last point, is the sum over all 65536 rows taken in 64 blocks of 1024.  The output
  entry is that total times the word of 2⁻¹⁶.
-/
import proofs.«167531_j15410342658796_1_alg».proof.Proof.ResultArray
import proofs.«167531_j15410342658796_1_alg».proof.Proof.BlockValue
import proofs.«167531_j15410342658796_1_alg».proof.Proof.LibBlockedSum

noncomputable section

open scoped BigOperators

open Idealize.ShloMosaic Idealize.ShloMosaic.TcCoe Idealize.SL.Sem Idealize.ShloMosaic.ValueIdx

namespace Cert.KernelIdeal.Value

open Cert.KernelIdeal Cert.KernelIdeal.Gen Cert.KernelIdeal.Accum Cert.KernelIdeal.Result Cert.KernelIdeal.Block Cert.RowSoftmax

variable (m : (ℓ : Loc nD τ sig) → Buf (Elt Ideal) ℓ)

/-- The argument matrix as launched. -/
abbrev arg (c : Dev nD) : FVec Ideal S65536x1000 .f32 := m ((c : Thread nD τ).loc main_arg0)

/-- Where block `t` sits: its index along the rows is `t`, along the columns `0`. -/
theorem block_index : ∀ t : Fin cfg0.N, win0_0.index t 0 = t.val ∧ win0_0.index t 1 = 0 :=
  (by decide +kernel : ∀ t : Fin grid0.N, win0_0.index t 0 = t.val ∧ win0_0.index t 1 = 0)

/-- Entry `(r, k)` of block `t` is entry `(1024 t + r, k)` of the matrix. -/
theorem block_read (c : Dev nD) (t : Fin cfg0.N) (r : Fin 1024) (k : Fin 1000) (hR : t.val * 1024 + r.val < 65536) :
    (iblk m c 0 t : FVec Ideal S1024x1000 .f32) (ix2 r k) = arg m c (ix2 ⟨t.val * 1024 + r.val, hR⟩ k) := by
  have hi := block_index t
  unfold iblk
  rw [View.read_apply]
  show V m c main_arg0 _ = m (c.tc.loc main_arg0) _
  unfold V
  refine congrArg (m (c.tc.loc main_arg0)) ?_
  funext a
  apply Fin.ext
  match a with
  | ⟨0, _⟩ => show win0_0.index t 0 * 1024 + 1 * r.val = t.val * 1024 + r.val; rw [hi.1]; omega
  | ⟨1, _⟩ => show win0_0.index t 1 * 1000 + 1 * k.val = k.val; rw [hi.2]; omega

/-- The probability at column `j` of the matrix's row at position `n` (zero past the last row). -/
def probAt (X : FVec Ideal S65536x1000 .f32) (j : Fin 1000) (n : ℕ) : EReal :=
  if h : n < 65536 then rowProb (row X ⟨n, h⟩) j else 0

/-- Block `t`'s class confidence total at column `j` is the sum over its 1024 rows' positions in the matrix. -/
theorem block_total (c : Dev nD) (t : Fin cfg0.N) (j : Fin 1000) :
    colTotal (iblk m c 0 t : FVec Ideal S1024x1000 .f32) j = ∑ r : Fin 1024, probAt (arg m c) j (t.val * 1024 + r.val) := by
  have hN : cfg0.N = 64 := N_0
  unfold colTotal
  refine Finset.sum_congr rfl fun r _ => ?_
  have hR : t.val * 1024 + r.val < 65536 := by have := t.isLt; have := r.isLt; omega
  rw [probAt, dif_pos hR]
  refine congrArg (fun v => rowProb v j) ?_
  funext k
  exact block_read m c t r k hR

/-- The scratch row after point `n`, at column `j`: the sum over blocks `0 … n` and the rows inside each. -/
theorem rowAfter_apply (c : Dev nD) (j : Fin 1000) : ∀ (n : ℕ) (h : n < cfg0.N) (z : Fin 1),
    rowAfter m c n h (ix2 z j) = ∑ t ∈ Finset.range (n + 1), ∑ r : Fin 1024, probAt (arg m c) j (t * 1024 + r.val)
  | 0, h, z => by
    rw [rowAfter]
    refine (accumulate_apply (iblk m c 0 ⟨0, h⟩) k0_pay1 z j).trans ?_
    rw [cleared_apply, zero_add, Finset.sum_range_one]
    exact block_total m c ⟨0, h⟩ j
  | n + 1, h, z => by
    rw [rowAfter]
    refine (accumulate_apply (iblk m c 0 ⟨n + 1, h⟩) _ z j).trans ?_
    rw [rowAfter_apply c j n _ z, Finset.sum_range_succ _ (n + 1)]
    exact congrArg _ (block_total m c ⟨n + 1, h⟩ j)

/-- The output array at column `j`: the whole matrix's class confidence total there, times the word of 2⁻¹⁶. -/
theorem result_apply (c : Dev nD) (z : Fin 1) (j : Fin 1000) :
    (result m c : FVec Ideal S1x1000 .f32) (ix2 z j) = colTotal (arg m c) j * Ideal.ofBits .f32 0x37800000#32 := by
  show k0_pay3 (F := Ideal) (rowAfter m c 63 last_lt) (ix2 z j) = _
  rw [scale_apply, rowAfter_apply m c j 63 last_lt z]
  refine congrArg (· * Ideal.ofBits .f32 0x37800000#32) ?_
  rw [Finset.sum_range (fun t => ∑ r : Fin 1024, probAt (arg m c) j (t * 1024 + r.val)),
    Cert.LibBlockedSum.sum_blocks 64 1024 (probAt (arg m c) j)]
  unfold colTotal
  exact Finset.sum_congr rfl fun R _ => dif_pos R.isLt

end Cert.KernelIdeal.Value

end
-- ==== Proof.MeanConfidence.lean ====
/-
  The two programs' mean class confidences are one vector.

  At column `j` the kernel's output array holds the class confidence total of the whole matrix times the word of 2⁻¹⁶;
  the reference holds that total divided by the word of 65536.  The two words denote 2⁻¹⁶ and 65536 exactly, and on the
  extended reals dividing by 65536 is multiplying by its reciprocal: the same number, column by column.
-/
import proofs.«167531_j15410342658796_1_alg».proof.Proof.KernelResult
import proofs.«167531_j15410342658796_1_alg».proof.Proof.ResultValue
import Idealize.ShloMosaic.Lib.ValueLayout

noncomputable section

open Idealize.ShloMosaic Idealize.ShloMosaic.TcCoe Idealize.SL.Sem Idealize.ShloMosaic.ValueIdx

namespace Cert.MeanConfidence

open Cert.KernelIdeal

variable (m : (ℓ : Loc nD τ sig) → Buf (Elt Ideal) ℓ)

/-- The kernel's vector of mean confidences is the reference's stage of that name, at the launched matrix. -/
theorem meanConf_eq (c : Dev nD) :
    Cert.KernelIdeal.Tail.meanConf m c = Cert.ReferenceIdeal.Read.val_main_v18 (F := Ideal) (Cert.KernelIdeal.Value.arg m c) := by
  funext i
  obtain ⟨j, rfl⟩ : ∃ j : Fin 1000, i = ix1 j := ⟨i 0, eq_ix1 i⟩
  rw [Cert.ReferenceIdeal.RefValue.mean_apply]
  refine (shapeCast_1a_a_apply (Cert.KernelIdeal.Result.result m c : FVec Ideal S1x1000 .f32) _ j).trans ?_
  rw [Cert.KernelIdeal.Value.result_apply m c 0 j, Cert.RowSoftmax.scaled_eq_mean]

end Cert.MeanConfidence

end
-- ==== Proof.lean ====
/-
  The mean calibration gap of a row-normalised softmax: a kernel that streams the 65536 × 1000 matrix in 64 blocks of
  1024 rows against a reference that treats the matrix whole.

  Both programs take each row `x`, divide it by `‖x‖ + ε`, take its softmax, average the softmax over the rows class by
  class, subtract each class's target frequency, and return the mean absolute difference over the 1000 classes.

  The kernel keeps a running column total in a scratch row: cleared at the first block, increased at every block by the
  block's column sums of probabilities, and at the last block multiplied by 2⁻¹⁶ and written out.  The reference sums
  all 65536 rows at once and divides by 65536.  On the extended reals addition is commutative and associative with no
  side condition, so the total taken block by block is the total; 2⁻¹⁶ and 65536 are exact dyadic words and dividing by
  a nonzero real is multiplying by its reciprocal at every extended real; so the two vectors of mean confidences are one
  vector, and the remaining host operations — the same in both programs — are applied to equal inputs.  No entry needs
  to be finite: the precondition is not used.

  The idealization rewrote nothing, so the word-level kernel needs only its frame.
-/
import proofs.«167531_j15410342658796_1_alg».proof.Defs
import proofs.«167531_j15410342658796_1_alg».proof.Proof.Gen.Kernel
import proofs.«167531_j15410342658796_1_alg».proof.Proof.Gen.Kernel.Skeleton
import proofs.«167531_j15410342658796_1_alg».proof.Proof.Gen.Kernel.Launch
import proofs.«167531_j15410342658796_1_alg».proof.Proof.Gen.Kernel.Points
import proofs.«167531_j15410342658796_1_alg».proof.Proof.Gen.Kernel.Frame
import proofs.«167531_j15410342658796_1_alg».proof.Proof.Gen.KernelIdeal
import proofs.«167531_j15410342658796_1_alg».proof.Proof.Gen.KernelIdeal.Skeleton
import proofs.«167531_j15410342658796_1_alg».proof.Proof.Gen.KernelIdeal.Launch
import proofs.«167531_j15410342658796_1_alg».proof.Proof.Gen.KernelIdeal.Points
import proofs.«167531_j15410342658796_1_alg».proof.Proof.Gen.KernelIdeal.Frame
import proofs.«167531_j15410342658796_1_alg».proof.Proof.Gen.ReferenceIdeal
import proofs.«167531_j15410342658796_1_alg».proof.Proof.Gen.Pre_finite_inputs
import proofs.«167531_j15410342658796_1_alg».proof.Proof.Gen.ReferenceIdeal.Run
import proofs.«167531_j15410342658796_1_alg».proof.Proof.Gen.ReferenceIdeal.Read
import proofs.«167531_j15410342658796_1_alg».proof.Proof.MeanConfidence
import Idealize.ShloMosaic.Adequacy
import Idealize.ShloMosaic.Init

noncomputable section

namespace Cert.Proof

open Idealize.ShloMosaic Idealize.SL.Sem Cert.Kernel

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, both idealized programs end at the calibration gap of one vector of mean confidences
    and the same targets. -/
theorem algebraic : Cert.algebraic_KernelIdeal_ReferenceIdeal := by
  intro m ρ m' ρ' _ hagree
  refine ⟨fun c => Cert.ReferenceIdeal.RefValue.gapOf
      (Cert.ReferenceIdeal.Read.val_main_v18 (F := Ideal) (Cert.KernelIdeal.Value.arg m c))
      (m ((c.tc : Thread Cert.KernelIdeal.nD Cert.KernelIdeal.τ).loc Cert.KernelIdeal.main_arg1)), ?_, ?_⟩
  · refine (θ_run Cert.KernelIdeal.defs _ _).mono (fun _ h c => ⟨(h c).1.trans ?_, (h c).2⟩)
      (Cert.KernelIdeal.Tail.run (F := Ideal) m ρ)
    rw [Cert.MeanConfidence.meanConf_eq]
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v33_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
